-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S8x768 : Shape := ⟨2, ![8, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S32768x768 .f32) (main_arg1 : FVec F S8x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S32768x768 : Shape := ⟨2, ![32768, 768]⟩
abbrev S8x768 : Shape := ⟨2, ![8, 768]⟩
abbrev S32768x8 : Shape := ⟨2, ![32768, 8]⟩
abbrev S8192x768 : Shape := ⟨2, ![8192, 768]⟩
abbrev S8192x8 : Shape := ⟨2, ![8192, 8]⟩

abbrev nBuf : Space → Nat
  | .hbm => 3
  | .vmem => 5
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S32768x8, .f32⟩
  | .local _ .vmem, ⟨0, _⟩ => ⟨S8192x768, .f32⟩
  | .local _ .vmem, ⟨1, _⟩ => ⟨S8192x768, .f32⟩
  | .local _ .vmem, ⟨2, _⟩ => ⟨S8x768, .f32⟩
  | .local _ .vmem, ⟨3, _⟩ => ⟨S8192x8, .f32⟩
  | .local _ .vmem, ⟨4, _⟩ => ⟨S8192x8, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x768_S8192x768_0_0 : ∀ a, (![0, 0] : Fin 2 → Nat) a + S8192x768.size a ≤ S8192x768.size a
  h_S8192x768 : 0 < S8192x768.numel
  bitsLt_bf16_f32 : FTy.bits .bf16 < FTy.bits .f32
  inb_S8x768_S8x768_0_0 : ∀ a, (![0, 0] : Fin 2 → Nat) a + S8x768.size a ≤ S8x768.size a
  h_S8x768 : 0 < S8x768.numel
  inb_S8192x8_S8192x8_0_0 : ∀ a, (![0, 0] : Fin 2 → Nat) a + S8192x8.size a ≤ S8192x8.size a
  h_S8192x8 : 0 < S8192x8.numel
  dot_S8192x768_S8x768_S8192x8_1_1_0_0_n_n_wf : DotDims.WF S8192x768 S8x768 S8192x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x768.size a ≤ S32768x768.size a
  hwx0_0 : ∀ i : grid0.Coords, EltTy.bits .f32 = 32 ∨ (Rect.block (s := S32768x768) S8192x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S8x768.size a
  hwx0_1 : ∀ i : grid0.Coords, EltTy.bits .f32 = 32 ∨ (Rect.block (s := S8x768) S8x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x8.size a ≤ S32768x8.size a
  hwx0_2 : ∀ i : grid0.Coords, EltTy.bits .f32 = 32 ∨ (Rect.block (s := S32768x8) S8192x8.size (cc0_transform_2 i) (hinb0_2 i)).WholeWords (EltTy.packing .f32)

variable [Facts₀]

def dot_S8192x768_S8x768_S8192x8_1_1_0_0_n_n : DotDims S8192x768 S8x768 S8192x8 where
  lhsContracting := [1]
  rhsContracting := [1]
  lhsNonContracting := [0]
  rhsNonContracting := [0]
  lhsBatch := []
  rhsBatch := []
  wf := dot_S8192x768_S8x768_S8192x8_1_1_0_0_n_n_wf

abbrev win0_0 : Pipeline.Window sig grid0 :=
  Pipeline.Window.ofSpec (Memref.whole main_arg0) S8192x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x768 : Shape := ⟨2, ![32768, 768]⟩
abbrev S8x768 : Shape := ⟨2, ![8, 768]⟩
abbrev S768x8 : Shape := ⟨2, ![768, 8]⟩
abbrev S32768x8 : Shape := ⟨2, ![32768, 8]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S768x8, .f32⟩
  | .hbm, ⟨3, _⟩ => ⟨S32768x8, .f32⟩
  | .hbm, ⟨4, _⟩ => ⟨S_, .f32⟩
  | .hbm, ⟨5, _⟩ => ⟨S32768x8, .f32⟩
  | .hbm, ⟨6, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S8x768_S768x8_1_0 : S8x768.Transposes [1, 0] S768x8
  bcast_S_S32768x8 : S_.BroadcastsInDim S32768x8 (![] : Fin 0 → Fin S32768x8.rank)
  dot_S32768x768_S768x8_S32768x8_1_0_0_1_n_n_wf : DotDims.WF S32768x768 S768x8 S32768x8 [1] [0] [0] [1] [] []

variable [Facts₀]

def dot_S32768x768_S768x8_S32768x8_1_0_0_1_n_n : DotDims S32768x768 S768x8 S32768x8 where
  lhsContracting := [1]
  rhsContracting := [0]
  lhsNonContracting := [0]
  rhsNonContracting := [1]
  lhsBatch := []
  rhsBatch := []
  wf := dot_S32768x768_S768x8_S32768x8_1_0_0_1_n_n_wf

class Facts : Prop extends Facts₀ where

variable [Facts]
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.BlockLogits.lean ====
/-
  What the kernel body computes from one block of tokens.

  The body loads a block of 8192 token rows and the whole weight, rounds both to a narrower format (which changes
  no extended real) and multiplies them on the matrix unit into a zero accumulator, contracting the feature axis
  of both operands. Entry `(p, q)` of the result is therefore the inner product of row `p` of the block with
  row `q` of the weight.
-/
import proofs.«104053_g86380382257743_cont_sun_m_742_18_alg».proof.Proof.Gen.KernelIdeal.Skeleton
import proofs.«104053_g86380382257743_cont_sun_m_742_18_alg».proof.Proof.LibMatmulLastAxis

noncomputable section

namespace Cert.Router.Block

open Cert.KernelIdeal Cert.KernelIdeal.Gen
open Idealize.ShloMosaic Idealize.ShloMosaic.ValueIdx
open scoped BigOperators

/-- The body's product contracts the last axis of both operands. -/
theorem lastAxis : MatmulLastAxis.IsLastAxis dot_S8192x768_S8x768_S8192x8_1_1_0_0_n_n :=
  ⟨rfl, rfl, rfl, rfl, rfl, rfl⟩

/-- The stored block at `(p, q)`: the inner product of row `p` of the token block with row `q` of the weight. -/
theorem payload_apply (x0 : Vec Ideal S8192x768 .f32) (x1 : Vec Ideal S8x768 .f32) (p : Fin 8192) (q : Fin 8) :
    k0_pay1 (F := Ideal) x0 x1 (ix2 p q) = ∑ k : Fin 768, x0 (ix2 p k) * x1 (ix2 q k) := by
  unfold k0_pay1
  exact MatmulLastAxis.matmul_zero_apply lastAxis none
    (truncf .bf16 (x0 : FVec Ideal S8192x768 .f32) bitsLt_bf16_f32)
    (truncf .bf16 (x1 : FVec Ideal S8x768 .f32) bitsLt_bf16_f32) p q

end Cert.Router.Block

end
-- ==== Proof.RouterLogits.lean ====
/-
  The router's logits as one function of the two argument arrays, over the extended reals.

  For 32768 tokens with 768 features each and 8 experts, each with a weight row of 768 features, the logit of
  token `p` for expert `q` is the inner product of row `p` of the activations with row `q` of the weight:
  `∑ k, x (p, k) · w (q, k)`. Nothing more is computed: the temperature is one, so the one thing a program may
  still do to this number is divide it by the float one, and a quotient by one is the number itself on every
  extended real, the two infinities included (`y · 1⁻¹ = y · 1 = y`). No distributive law is used anywhere, so
  no entry has to be finite.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx
open scoped BigOperators

/-- Token `p`'s logit for expert `q`: the inner product of row `p` of `x` with row `q` of `w`. -/
def logit (x : (⟨2, ![32768, 768]⟩ : Shape).Idx → EReal) (w : (⟨2, ![8, 768]⟩ : Shape).Idx → EReal)
    (p : Fin 32768) (q : Fin 8) : EReal :=
  ∑ k : Fin 768, x (ix2 p k) * w (ix2 q k)

/-- The whole array of logits, one entry per (token, expert). -/
def logits (x : (⟨2, ![32768, 768]⟩ : Shape).Idx → EReal) (w : (⟨2, ![8, 768]⟩ : Shape).Idx → EReal) :
    (⟨2, ![32768, 8]⟩ : Shape).Idx → EReal :=
  fun i => logit x w (i 0) (i 1)

theorem logits_apply (x : (⟨2, ![32768, 768]⟩ : Shape).Idx → EReal) (w : (⟨2, ![8, 768]⟩ : Shape).Idx → EReal)
    (p : Fin 32768) (q : Fin 8) : logits x w (ix2 p q) = ∑ k : Fin 768, x (ix2 p k) * w (ix2 q k) := rfl

/-- The single-precision word `0x3F800000` is the number one. -/
theorem one_word : Ideal.ofBits .f32 0x3F800000#32 = ((1 : ℝ) : EReal) := by
  simp [Ideal.ofBits, Ideal.ieee, -EReal.coe_mul]
  norm_num

/-- Dividing by the float one changes no extended real. -/
theorem div_one_word (y : EReal) : Ideal.div y (Ideal.ofBits .f32 0x3F800000#32) = y := by
  rw [one_word, Ideal.div_coe one_ne_zero, div_one, EReal.coe_one, mul_one]

end Cert.Router

end
-- ==== Proof.KernelLogits.lean ====
/-
  The kernel's result array is the array of logits.

  The grid has four points. Point `t` is handed rows `8192·t … 8192·t + 8191` of the activations and the whole
  weight, and writes back rows `8192·t … 8192·t + 8191` of the result, all eight columns. Row `p` of the block it
  stores is the inner products of row `p` of its token block — row `8192·t + p` of the activations — with the
  eight weight rows, so the block it writes back is the same block of the array of logits. The four blocks are
  disjoint and together hold every row, so after the run the whole result array is the array of logits.
-/
import proofs.«104053_g86380382257743_cont_sun_m_742_18_alg».proof.Proof.Gen.KernelIdeal.Value
import proofs.«104053_g86380382257743_cont_sun_m_742_18_alg».proof.Proof.BlockLogits
import proofs.«104053_g86380382257743_cont_sun_m_742_18_alg».proof.Proof.RouterLogits

noncomputable section

namespace Cert.Router.Kernel

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- A block of 8192 token rows starting at row `8192·b`, with the whole weight, gives that block of the logits:
    entry `(p, q)` of the body's product is entry `(8192·b + p, q)` of the array of logits. -/
theorem block_entry (X : (⟨2, ![32768, 768]⟩ : Shape).Idx → EReal) (W : (⟨2, ![8, 768]⟩ : Shape).Idx → EReal)
    (x0 : Vec Ideal S8192x768 .f32) (x1 : Vec Ideal S8x768 .f32) (b : Nat)
    (h0 : ∀ (p : Fin 8192) (P : Fin 32768) (k : Fin 768), P.val = b * 8192 + p.val → x0 (ix2 p k) = X (ix2 P k))
    (h1 : ∀ (q : Fin 8) (k : Fin 768), x1 (ix2 q k) = W (ix2 q k))
    (p : Fin 8192) (q : Fin 8) (P : Fin 32768) (hP : P.val = b * 8192 + p.val) :
    k0_pay1 (F := Ideal) x0 x1 (ix2 p q) = logits X W (ix2 P q) := by
  rw [Block.payload_apply, logits_apply]
  exact Finset.sum_congr rfl fun k _ => by rw [h0 p P k hP, h1 q k]

variable (m : (ℓ : Loc nD τ sig) → Buf (Elt Ideal) ℓ) (ρ : Dev nD → PrngReg)

theorem origin : (![0, 0] : Fin 2 → Nat) = fun _ => 0 := funext fun a => by fin_cases a <;> rfl

/-- The block index maps over the four grid points: the token block moves with the result block along the rows,
    the weight block stays put, and the result's row block index is at most three. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 3
    ∧ win0_2.index t (1 : Fin 2) = 0 :=
  (by decide +kernel : ∀ t : Fin grid0.N, _)

/-- Every one of the four row blocks of the result is some point's. -/
theorem block_onto : ∀ b : Fin 4, ∃ t : Fin cfg0.N, win0_2.index t = ![b.val, 0] :=
  (by decide +kernel : ∀ b : Fin 4, ∃ t : Fin grid0.N, win0_2.index t = ![b.val, 0])

/-- What point `t` writes back is block `t` of the array of logits of the argument arrays. -/
theorem flushed_eq (c : Dev nD) (t : Fin cfg0.N) :
    (dats m 0 c).flushed 2 t
      = ((cfg0.win 2).blk t).view.read (Elt Ideal) (logits (V m c main_arg0) (V m c main_arg1)) := by
  rw [Value.flushed2]
  unfold out0_2
  rw [View.canon_unit_zero origin]
  simp only [View.ld_unit_zero (S := S8192x768) origin, View.ld_unit_zero (S := S8x768) origin]
  obtain ⟨e0, e1, e2, e3, e4, e5⟩ := block_indices t
  show (fun j : S8192x8.Idx => k0_pay1 (F := Ideal) (iblk m c 0 t) (iblk m c 1 t) j)
    = (fun j : S8192x8.Idx => logits (V m c main_arg0) (V m c main_arg1) (((cfg0.win 2).blk t).view.emb j))
  funext j
  obtain ⟨p, q, rfl⟩ : ∃ (p : Fin 8192) (q : Fin 8), j = ix2 p q := ⟨j 0, j 1, eq_ix2 j⟩
  have hp : p.val < 8192 := p.isLt
  have hq : q.val < 8 := q.isLt
  have hemb : ((cfg0.win 2).blk t).view.emb (ix2 p q)
      = ix2 (⟨win0_2.index t (0 : Fin 2) * 8192 + p.val, by omega⟩ : Fin 32768) q := by
    funext a; apply Fin.ext
    match a with
    | ⟨0, _⟩ => show win0_2.index t (0 : Fin 2) * 8192 + 1 * p.val = win0_2.index t (0 : Fin 2) * 8192 + p.val; omega
    | ⟨1, _⟩ => show win0_2.index t (1 : Fin 2) * 8 + 1 * q.val = q.val; omega
  rw [hemb]
  refine block_entry (V m c main_arg0) (V m c main_arg1) (iblk m c 0 t) (iblk m c 1 t) (win0_2.index t (0 : Fin 2))
    ?_ ?_ p q _ rfl
  · intro p' P k hP
    have hp' : p'.val < 8192 := p'.isLt
    have hk : k.val < 768 := k.isLt
    show V m c main_arg0 (((cfg0.win 0).blk t).view.emb (ix2 p' k)) = V m c main_arg0 (ix2 P k)
    refine congrArg (V m c main_arg0) ?_
    funext a; apply Fin.ext
    match a with
    | ⟨0, _⟩ => show win0_0.index t (0 : Fin 2) * 8192 + 1 * p'.val = P.val; omega
    | ⟨1, _⟩ => show win0_0.index t (1 : Fin 2) * 768 + 1 * k.val = k.val; omega
  · intro q' k
    have hq' : q'.val < 8 := q'.isLt
    have hk : k.val < 768 := k.isLt
    show V m c main_arg1 (((cfg0.win 1).blk t).view.emb (ix2 q' k)) = V m c main_arg1 (ix2 q' k)
    refine congrArg (V m c main_arg1) ?_
    funext a; apply Fin.ext
    match a with
    | ⟨0, _⟩ => show win0_1.index t (0 : Fin 2) * 8 + 1 * q'.val = q'.val; omega
    | ⟨1, _⟩ => show win0_1.index t (1 : Fin 2) * 768 + 1 * k.val = k.val; omega

/-- An index of the result array lies in point `t`'s block iff each coordinate lies in the block's range. -/
theorem mem_block (t : Fin cfg0.N) (i : S32768x8.Idx) :
    i ∈ ((cfg0.win 2).blk t).view.set ↔ ∀ a : Fin 2, win0_2.index t a * S8192x8.size a ≤ (i a).val
      ∧ (i a).val < win0_2.index t a * S8192x8.size a + S8192x8.size a := by
  show i ∈ ((View.whole main_v0).slice (win0_2.rect t)).set ↔ _
  rw [View.set_slice_whole, Rect.mem_set_unit]
  exact Iff.rfl

/-- Every index of the result array lies in the block of the point that holds its row: row `r` in block `r / 8192`. -/
theorem covered (i : S32768x8.Idx) :
    ∃ t : Fin cfg0.N, (cfg0.win 2).flush t = true ∧ i ∈ ((cfg0.win 2).blk t).view.set := by
  have hi0 : (i 0).val < 32768 := (i 0).isLt
  have hi1 : (i 1).val < 8 := (i 1).isLt
  obtain ⟨t, ht⟩ := block_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 8 ≤ (i 1).val ∧ (i 1).val < win0_2.index t (1 : Fin 2) * 8 + 8
    omega

/-- The result array after the run is the array of logits of the argument arrays. -/
theorem final (c : Dev nD) : (dats m 0 c).arrAt 2 cfg0.N
    = logits (m ((c : Thread nD τ).loc main_arg0)) (m ((c : Thread nD τ).loc main_arg1)) :=
  (dats m 0 c).arrAt_eq_of_cover 2 (logits (V m c main_arg0) (V m c main_arg1)) (fun t _ => flushed_eq m c t) covered

/-- The kernel's run: it ends with the result array at the logits and the arguments unchanged. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Router.Kernel

end
-- ==== Proof.ReferenceLogits.lean ====
/-
  The reference computes the router's logits.

  It transposes the weight, takes the plain matrix product of the activations with the transposed weight, and
  divides every entry by the float one. Entry `(p, q)` of the product is `∑ k, x (p, k) · wᵀ (k, q)`, and
  `wᵀ (k, q)` is `w (q, k)`; the quotient by one is the product's entry itself. So the reference's result is the
  array of inner products of the rows of `x` with the rows of `w`.
-/
import proofs.«104053_g86380382257743_cont_sun_m_742_18_alg».proof.Proof.Gen.ReferenceIdeal.Read
import proofs.«104053_g86380382257743_cont_sun_m_742_18_alg».proof.Proof.RouterLogits

noncomputable section

namespace Cert.Router.Reference

open Cert.ReferenceIdeal Cert.ReferenceIdeal.Gen Cert.ReferenceIdeal.Read
open Idealize.ShloMosaic Idealize.ShloMosaic.ValueIdx
open scoped BigOperators

/-- The left operand of the product is read at row `p`, column `k`. -/
theorem left_index (p : Fin 32768) (q : Fin 8) (k : Fin 768) : lidx_main_v1 (ix2 p q) k = ix2 p k :=
  funext fun a => Fin.ext (by match a with | ⟨0, _⟩ => rfl | ⟨1, _⟩ => rfl)

/-- The transposed weight at `(k, q)` is the weight at `(q, k)`. -/
theorem right_index (p : Fin 32768) (q : Fin 8) (k : Fin 768) :
    idx_main_v0 (ridx_main_v1 (ix2 p q) k) = ix2 q k :=
  funext fun a => Fin.ext (by match a with | ⟨0, _⟩ => rfl | ⟨1, _⟩ => rfl)

/-- The reference's result, as a function of the two argument arrays, is the array of logits. -/
theorem result_eq (x : (⟨S32768x768, .f32⟩ : BufTy).Contents (Elt Ideal))
    (w : (⟨S8x768, .f32⟩ : BufTy).Contents (Elt Ideal)) :
    val_main_v3 (F := Ideal) x w = logits x w := by
  funext i
  obtain ⟨p, q, rfl⟩ : ∃ (p : Fin 32768) (q : Fin 8), i = ix2 p q := ⟨i 0, i 1, eq_ix2 i⟩
  rw [val_main_v3_apply, val_main_v1_apply, val_main_v2_apply, val_main_cst_apply, logits_apply]
  simp only [val_main_v0_apply, left_index, right_index]
  exact div_one_word _

end Cert.Router.Reference

end
-- ==== Proof.lean ====
/-
  The router's logits: a kernel against its reference, equal entry by entry over the extended reals.

  The kernel walks the 32768 tokens in four blocks of 8192 rows; at each block it multiplies the block of
  activations with the whole weight on the matrix unit, contracting the 768 features of both, and writes the
  8192 × 8 block of products back. The reference transposes the weight, takes one plain matrix product of all the
  activations with it and divides by the temperature, the float one. Entry `(p, q)` is on both sides the inner
  product `∑ k, x (p, k) · w (q, k)` over the same 768 features: the kernel's because row `p` of the result lies in
  exactly one block and that block's product reads row `p` of the activations; the reference's because the
  transposed weight at `(k, q)` is the weight at `(q, k)` and a quotient by one is the number itself on every
  extended real. No distributive law is used, so the finiteness of the inputs is never opened.

  The three frames are the programs' runs with the result forgotten; the kernel's idealization rewrote no operation.
-/
import proofs.«104053_g86380382257743_cont_sun_m_742_18_alg».proof.Defs
import proofs.«104053_g86380382257743_cont_sun_m_742_18_alg».proof.Proof.Gen.Kernel
import proofs.«104053_g86380382257743_cont_sun_m_742_18_alg».proof.Proof.Gen.Kernel.Skeleton
import proofs.«104053_g86380382257743_cont_sun_m_742_18_alg».proof.Proof.Gen.Kernel.Launch
import proofs.«104053_g86380382257743_cont_sun_m_742_18_alg».proof.Proof.Gen.Kernel.Points
import proofs.«104053_g86380382257743_cont_sun_m_742_18_alg».proof.Proof.Gen.Kernel.Frame
import proofs.«104053_g86380382257743_cont_sun_m_742_18_alg».proof.Proof.Gen.KernelIdeal
import proofs.«104053_g86380382257743_cont_sun_m_742_18_alg».proof.Proof.Gen.KernelIdeal.Skeleton
import proofs.«104053_g86380382257743_cont_sun_m_742_18_alg».proof.Proof.Gen.KernelIdeal.Launch
import proofs.«104053_g86380382257743_cont_sun_m_742_18_alg».proof.Proof.Gen.KernelIdeal.Points
import proofs.«104053_g86380382257743_cont_sun_m_742_18_alg».proof.Proof.Gen.KernelIdeal.Frame
import proofs.«104053_g86380382257743_cont_sun_m_742_18_alg».proof.Proof.Gen.ReferenceIdeal
import proofs.«104053_g86380382257743_cont_sun_m_742_18_alg».proof.Proof.Gen.Pre_finite_inputs
import proofs.«104053_g86380382257743_cont_sun_m_742_18_alg».proof.Proof.Gen.KernelIdeal.Value
import proofs.«104053_g86380382257743_cont_sun_m_742_18_alg».proof.Proof.Gen.ReferenceIdeal.Run
import proofs.«104053_g86380382257743_cont_sun_m_742_18_alg».proof.Proof.Gen.ReferenceIdeal.Read
import Idealize.ShloMosaic.Adequacy
import Idealize.ShloMosaic.Init
import proofs.«104053_g86380382257743_cont_sun_m_742_18_alg».proof.Proof.KernelLogits
import proofs.«104053_g86380382257743_cont_sun_m_742_18_alg».proof.Proof.ReferenceLogits

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Both programs end with the array of logits of the argument arrays they were launched with, and the two
    launches agree on those arrays. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (Cert.Router.Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
